-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x128x64 : Shape := ⟨4, ![16, 128, 128, 64]⟩
abbrev S_ : Shape := ⟨0, ![]⟩

class Facts : Prop where
  bcast_S_S16x128x128x64 : S_.BroadcastsInDim S16x128x128x64 (![] : Fin 0 → Fin S16x128x128x64.rank)
  reducesTo_S16x128x128x64_S_d0_1_2_3 : S16x128x128x64.ReducesTo [0, 1, 2, 3] S_
  h_S_ : 0 < S_.numel

variable [Facts]

def fn {F : FTy → Type} [FloatOps F] (main_arg0 : FVec F S16x128x128x64 .f32) (main_arg1 : IVec S16x128x128x64 32) : IVec S_ 1 :=
  let main_v0 : FVec F S16x128x128x64 .f32 := Host.absf main_arg0
  let main_cst : FVec F S_ .f32 := constant S_ .f32 0x7F800000#32
  let main_v1 : FVec F S16x128x128x64 .f32 := broadcastInDim S16x128x128x64 ![] bcast_S_S16x128x128x64 main_cst
  let main_v2 : IVec S16x128x128x64 1 := cmpf .olt main_v0 main_v1
  let main_c : IVec S_ 1 := constantI S_ 1 1#1
  let main_v3 : IVec S_ 1 := (fun x v => Host.reduce IntOp.andi x v reducesTo_S16x128x128x64_S_d0_1_2_3 h_S_) main_v2 main_c
  main_v3
-- ==== Kernel.lean ====
abbrev S16x128x128x64 : Shape := ⟨4, ![16, 128, 128, 64]⟩
abbrev S16x8192x128 : Shape := ⟨3, ![16, 8192, 128]⟩
abbrev S1x8192x128 : Shape := ⟨3, ![1, 8192, 128]⟩
abbrev S16777216 : Shape := ⟨1, ![16777216]⟩
abbrev S_ : Shape := ⟨0, ![]⟩
abbrev S67108864 : Shape := ⟨1, ![67108864]⟩
abbrev S16777216x1 : Shape := ⟨2, ![16777216, 1]⟩
abbrev S16x256x256x64 : Shape := ⟨4, ![16, 256, 256, 64]⟩

abbrev nBuf : Space → Nat
  | .hbm => 18
  | .vmem => 4
  | .smem => 0
  | _ => 0

abbrev bufTy : (tb : Table) → Fin (tcTables nBuf tb) → BufTy
  | .hbm, ⟨0, _⟩ => ⟨S16x128x128x64, .f32⟩
  | .hbm, ⟨1, _⟩ => ⟨S16x128x128x64, .i32⟩
  | .hbm, ⟨2, _⟩ => ⟨S16x8192x128, .i32⟩
  | .hbm, ⟨3, _⟩ => ⟨S16x8192x128, .i32⟩
  | .hbm, ⟨4, _⟩ => ⟨S16777216, .i32⟩
  | .hbm, ⟨5, _⟩ => ⟨S16777216, .f32⟩
  | .hbm, ⟨6, _⟩ => ⟨S_, .f32⟩
  | .hbm, ⟨7, _⟩ => ⟨S67108864, .f32⟩
  | .hbm, ⟨8, _⟩ => ⟨S_, .i32⟩
  | .hbm, ⟨9, _⟩ => ⟨S16777216, .i32⟩
  | .hbm, ⟨10, _⟩ => ⟨S16777216, .i1⟩
  | .hbm, ⟨11, _⟩ => ⟨S_, .i32⟩
  | .hbm, ⟨12, _⟩ => ⟨S16777216, .i32⟩
  | .hbm, ⟨13, _⟩ => ⟨S16777216, .i32⟩
  | .hbm, ⟨14, _⟩ => ⟨S16777216, .i32⟩
  | .hbm, ⟨15, _⟩ => ⟨S16777216x1, .i32⟩
  | .hbm, ⟨16, _⟩ => ⟨S67108864, .f32⟩
  | .hbm, ⟨17, _⟩ => ⟨S16x256x256x64, .f32⟩
  | .local _ .vmem, ⟨0, _⟩ => ⟨S1x8192x128, .i32⟩
  | .local _ .vmem, ⟨1, _⟩ => ⟨S1x8192x128, .i32⟩
  | .local _ .vmem, ⟨2, _⟩ => ⟨S1x8192x128, .i32⟩
  | .local _ .vmem, ⟨3, _⟩ => ⟨S1x8192x128, .i32⟩
  | _, _ => ⟨S16x128x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8192x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x128x128x64_S16x8192x128 : S16x128x128x64.ShapeCasts S16x8192x128
  inb_S1x8192x128_S1x8192x128_0_0_0 : ∀ a, (![0, 0, 0] : Fin 3 → Nat) a + S1x8192x128.size a ≤ S1x8192x128.size a
  h_S1x8192x128 : 0 < S1x8192x128.numel
  shapeCasts_S1x8192x128_S1x8192x128 : S1x8192x128.ShapeCasts S1x8192x128
  shapeCasts_S16x8192x128_S16777216 : S16x8192x128.ShapeCasts S16777216
  shapeCasts_S16x128x128x64_S16777216 : S16x128x128x64.ShapeCasts S16777216
  bcast_S_S67108864 : S_.BroadcastsInDim S67108864 (![] : Fin 0 → Fin S67108864.rank)
  bcast_S_S16777216 : S_.BroadcastsInDim S16777216 (![] : Fin 0 → Fin S16777216.rank)
  bcast_S16777216_S16777216x1_0 : S16777216.BroadcastsInDim S16777216x1 (![0] : Fin 1 → Fin S16777216x1.rank)
  shapeCasts_S67108864_S16x256x256x64 : S67108864.ShapeCasts S16x256x256x64
  scatter_S67108864_S16777216x1_S16777216_n_0_0_1_wf : ScatterDims.WF S67108864 S16777216x1 S16777216 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x128.size a ≤ S16x8192x128.size a
  hwx0_0 : ∀ i : grid0.Coords, EltTy.bits .i32 = 32 ∨ (Rect.block (s := S16x8192x128) S1x8192x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192x128.size a ≤ S16x8192x128.size a
  hwx0_1 : ∀ i : grid0.Coords, EltTy.bits .i32 = 32 ∨ (Rect.block (s := S16x8192x128) S1x8192x128.size (cc0_transform_1 i) (hinb0_1 i)).WholeWords (EltTy.packing .i32)

variable [Facts₀]

def scatter_S67108864_S16777216x1_S16777216_n_0_0_1 : ScatterDims S67108864 S16777216x1 S16777216 where
  updateWindowDims := []
  insertedWindowDims := [0]
  scatterDimsToOperandDims := [0]
  indexVectorDim := 1
  wf := scatter_S67108864_S16777216x1_S16777216_n_0_0_1_wf

abbrev win0_0 : Pipeline.Window sig grid0 :=
  Pipeline.Window.ofSpec (Memref.whole main_v0) S1x8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x8192x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x128x128x64 : Shape := ⟨4, ![16, 128, 128, 64]⟩
abbrev S16 : Shape := ⟨1, ![16]⟩
abbrev S_ : Shape := ⟨0, ![]⟩
abbrev S16x1 : Shape := ⟨2, ![16, 1]⟩
abbrev S16x1048576 : Shape := ⟨2, ![16, 1048576]⟩
abbrev S16777216 : Shape := ⟨1, ![16777216]⟩
abbrev S67108864 : Shape := ⟨1, ![67108864]⟩
abbrev S16777216x1 : Shape := ⟨2, ![16777216, 1]⟩
abbrev S16x256x256x64 : Shape := ⟨4, ![16, 256, 256, 64]⟩

abbrev nBuf : Space → Nat
  | .hbm => 24
  | .vmem => 0
  | .smem => 0
  | _ => 0

abbrev bufTy : (tb : Table) → Fin (tcTables nBuf tb) → BufTy
  | .hbm, ⟨0, _⟩ => ⟨S16x128x128x64, .f32⟩
  | .hbm, ⟨1, _⟩ => ⟨S16x128x128x64, .i32⟩
  | .hbm, ⟨2, _⟩ => ⟨S16, .i32⟩
  | .hbm, ⟨3, _⟩ => ⟨S_, .i32⟩
  | .hbm, ⟨4, _⟩ => ⟨S16, .i32⟩
  | .hbm, ⟨5, _⟩ => ⟨S16, .i32⟩
  | .hbm, ⟨6, _⟩ => ⟨S16x1, .i32⟩
  | .hbm, ⟨7, _⟩ => ⟨S16x1048576, .i32⟩
  | .hbm, ⟨8, _⟩ => ⟨S16x1048576, .i32⟩
  | .hbm, ⟨9, _⟩ => ⟨S16x1048576, .i32⟩
  | .hbm, ⟨10, _⟩ => ⟨S16777216, .i32⟩
  | .hbm, ⟨11, _⟩ => ⟨S16777216, .f32⟩
  | .hbm, ⟨12, _⟩ => ⟨S_, .f32⟩
  | .hbm, ⟨13, _⟩ => ⟨S67108864, .f32⟩
  | .hbm, ⟨14, _⟩ => ⟨S_, .i32⟩
  | .hbm, ⟨15, _⟩ => ⟨S16777216, .i32⟩
  | .hbm, ⟨16, _⟩ => ⟨S16777216, .i1⟩
  | .hbm, ⟨17, _⟩ => ⟨S_, .i32⟩
  | .hbm, ⟨18, _⟩ => ⟨S16777216, .i32⟩
  | .hbm, ⟨19, _⟩ => ⟨S16777216, .i32⟩
  | .hbm, ⟨20, _⟩ => ⟨S16777216, .i32⟩
  | .hbm, ⟨21, _⟩ => ⟨S16777216x1, .i32⟩
  | .hbm, ⟨22, _⟩ => ⟨S67108864, .f32⟩
  | .hbm, ⟨23, _⟩ => ⟨S16x256x256x64, .f32⟩
  | _, _ => ⟨S16x128x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S16_S16x1_0 : S16.BroadcastsInDim S16x1 (![0] : Fin 1 → Fin S16x1.rank)
  shapeCasts_S16x128x128x64_S16x1048576 : S16x128x128x64.ShapeCasts S16x1048576
  bcast_S16x1_S16x1048576_0_1 : S16x1.BroadcastsInDim S16x1048576 (![0, 1] : Fin 2 → Fin S16x1048576.rank)
  shapeCasts_S16x1048576_S16777216 : S16x1048576.ShapeCasts S16777216
  shapeCasts_S16x128x128x64_S16777216 : S16x128x128x64.ShapeCasts S16777216
  bcast_S_S67108864 : S_.BroadcastsInDim S67108864 (![] : Fin 0 → Fin S67108864.rank)
  bcast_S_S16777216 : S_.BroadcastsInDim S16777216 (![] : Fin 0 → Fin S16777216.rank)
  bcast_S16777216_S16777216x1_0 : S16777216.BroadcastsInDim S16777216x1 (![0] : Fin 1 → Fin S16777216x1.rank)
  shapeCasts_S67108864_S16x256x256x64 : S67108864.ShapeCasts S16x256x256x64
  scatter_S67108864_S16777216x1_S16777216_n_0_0_1_wf : ScatterDims.WF S67108864 S16777216x1 S16777216 [] [0] [0] 1

variable [Facts₀]

def scatter_S67108864_S16777216x1_S16777216_n_0_0_1 : ScatterDims S67108864 S16777216x1 S16777216 where
  updateWindowDims := []
  insertedWindowDims := [0]
  scatterDimsToOperandDims := [0]
  indexVectorDim := 1
  wf := scatter_S67108864_S16777216x1_S16777216_n_0_0_1_wf

class Facts : Prop extends Facts₀ where

variable [Facts]
-- ==== Proof.KernelBlocks.lean ====
/-
  The region of the idealized kernel: a grid of 16 points, point `b` staging block `b` (shape [1, 8192, 128]) of a
  [16, 8192, 128] array of 32-bit words and writing back that block with `b * 4194304` added to every word (32-bit
  arithmetic, so the sum wraps).  Here: the array the region finds is the mask argument re-laid as [16, 8192, 128];
  what a point writes back is block `b` of ONE whole-array function, `addOffset`, of that array (entry [b, r, l] gets
  b * 4194304 added); the 16 blocks tile the array along its leading axis, so after the region the output array IS
  `addOffset` of the input array.
-/
import proofs.«123586_j80900003987460_1_alg».proof.Proof.KernelIdealFrame
import Idealize.ShloMosaic.Lib.Pipeline.Value

noncomputable section

namespace Cert.KernelIdeal.Blocks

open Idealize.ShloMosaic Idealize.ShloMosaic.TcCoe Idealize.SL.Sem
open Cert.KernelIdeal Cert.KernelIdeal.Gen Cert.KernelIdeal.GenP
open Idealize.ShloMosaic.Pipeline (Dat Cfg Window)

variable {F : FTy → Type} [FloatOps F]

variable (m : (ℓ : Loc nD τ sig) → Buf (Elt F) ℓ)

/-- Every word of a [16, 8192, 128] array plus its leading coordinate times 4194304, in 32-bit arithmetic. -/
def addOffset (A : IVec S16x8192x128 32) : IVec S16x8192x128 32 :=
  fun i => IntOp.addi (A i) (Scalar.muli (BitVec.ofNat 32 (i 0).val) 4194304#32)

/-- The body's stored value at an index of the block: the loaded word plus the grid coordinate times 4194304. -/
theorem pay_apply (i : grid0.Coords) (v0 : Vec F S1x8192x128 .i32) (j : S1x8192x128.Idx) :
    k0_pay1 i v0 j = IntOp.addi (v0 j) (Scalar.muli (BitVec.ofNat 32 (i 0).val) 4194304#32) := by
  unfold k0_pay1
  show IntOp.addi (shapeCast S1x8192x128 v0 shapeCasts_S1x8192x128_S1x8192x128 j) _ = _
  rw [shapeCast_self]
  rfl

theorem zero3 : (![0, 0, 0] : Fin 3 → Nat) = fun _ => 0 := funext fun a => by fin_cases a <;> rfl

/-- The array the region finds in its input window: the mask argument as launched, re-laid as [16, 8192, 128]. -/
theorem entry_v0 (c : Dev nD) :
    (V m c main_v0 : S16x8192x128.Idx → Elt F .i32)
      = shapeCast S16x8192x128 (m ((c : Thread nD τ).loc main_arg1)) shapeCasts_S16x128x128x64_S16x8192x128 := by
  show StableHlo.after hostOps0 (fun b => m (c, b)) (Proc.devRef .tc main_v0) = _
  after_results
  rfl

/-- The two windows' index maps at every grid point: both are [point's coordinate, 0, 0], and the coordinate is the
    point's number. -/
theorem index_facts : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ (grid0.coords t 0).val = t.val :=
  (by decide +kernel : ∀ t : Fin grid0.N, _)

/-- What point `t` writes back is block `t` of `addOffset` of the array the region finds. -/
theorem flushed_eq (c : Dev nD) (t : Fin cfg0.N) :
    (dats m 0 c).flushed 1 t = ((cfg0.win 1).blk t).view.read (Elt F) (addOffset (V m c main_v0)) := by
  show (cfg0.win 1).cut (grid0.coords t) ((dats m 0 c).after 1 t) = _
  rw [after0_1]
  unfold out0_1
  rw [View.canon_unit_zero zero3]
  simp only [View.ld_unit_zero (S := S1x8192x128) zero3]
  obtain ⟨e0, e1, e2, e3, e4, e5, e6⟩ := index_facts t
  funext j
  show k0_pay1 (grid0.coords t) (iblk m c 0 t) j = addOffset (V m c main_v0) (((cfg0.win 1).blk t).view.emb j)
  rw [pay_apply]
  have h0 : ((cfg0.win 0).blk t).view.emb j = ((cfg0.win 1).blk t).view.emb j := by
    funext a; apply Fin.ext
    match a with
    | ⟨0, _⟩ => show win0_0.index t (0 : Fin 3) * 1 + 1 * (j 0).val = win0_1.index t (0 : Fin 3) * 1 + 1 * (j 0).val; omega
    | ⟨1, _⟩ => show win0_0.index t (1 : Fin 3) * 8192 + 1 * (j 1).val = win0_1.index t (1 : Fin 3) * 8192 + 1 * (j 1).val; omega
    | ⟨2, _⟩ => show win0_0.index t (2 : Fin 3) * 128 + 1 * (j 2).val = win0_1.index t (2 : Fin 3) * 128 + 1 * (j 2).val; omega
  have h1 : ((((cfg0.win 1).blk t).view.emb j) 0).val = (grid0.coords t 0).val := by
    show win0_1.index t (0 : Fin 3) * 1 + 1 * (j 0).val = _
    have hj : (j 0).val < 1 := (j 0).isLt
    omega
  show IntOp.addi (V m c main_v0 (((cfg0.win 0).blk t).view.emb j)) _
    = IntOp.addi (V m c main_v0 (((cfg0.win 1).blk t).view.emb j))
        (Scalar.muli (BitVec.ofNat 32 ((((cfg0.win 1).blk t).view.emb j) 0).val) 4194304#32)
  rw [h0, h1]

/-- An index of the output array is in point `t`'s block iff each coordinate is in the block's range on its axis. -/
theorem mem_blk (t : Fin cfg0.N) (i : S16x8192x128.Idx) :
    i ∈ ((cfg0.win 1).blk t).view.set ↔ ∀ a : Fin 3, win0_1.index t a * S1x8192x128.size a ≤ (i a).val ∧ (i a).val < win0_1.index t a * S1x8192x128.size a + S1x8192x128.size a := by
  show i ∈ ((View.whole main_v1).slice (win0_1.rect t)).set ↔ _
  rw [View.set_slice_whole, Rect.mem_set_unit]
  exact Iff.rfl

/-- The 16 blocks tile the array along its leading axis: entry [b, r, l] is in the block of point `b`. -/
theorem cover (i : S16x8192x128.Idx) :
    ∃ t : Fin cfg0.N, (cfg0.win 1).flush t = true ∧ i ∈ ((cfg0.win 1).blk t).view.set := by
  have hi0 : (i 0).val < 16 := (i 0).isLt
  have hi1 : (i 1).val < 8192 := (i 1).isLt
  have hi2 : (i 2).val < 128 := (i 2).isLt
  have hN : cfg0.N = 16 := N_0
  let t : Fin cfg0.N := ⟨(i 0).val, by rw [hN]; exact hi0⟩
  obtain ⟨e0, e1, e2, e3, e4, e5, e6⟩ := index_facts t
  have ht : t.val = (i 0).val := rfl
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 8192 ≤ (i 1).val ∧ (i 1).val < win0_1.index t (1 : Fin 3) * 8192 + 8192; omega
  | ⟨2, _⟩ => show win0_1.index t (2 : Fin 3) * 128 ≤ (i 2).val ∧ (i 2).val < win0_1.index t (2 : Fin 3) * 128 + 128; omega

/-- The output array after the region: `addOffset` of the mask argument re-laid as [16, 8192, 128]. -/
theorem final (c : Dev nD) :
    (dats m 0 c).arrAt 1 cfg0.N
      = addOffset (shapeCast S16x8192x128 (m ((c : Thread nD τ).loc main_arg1)) shapeCasts_S16x128x128x64_S16x8192x128) := by
  rw [← entry_v0 m c]
  exact (dats m 0 c).arrAt_eq_of_cover 1 (addOffset (V m c main_v0)) (fun t _ => flushed_eq m c t) cover

end Cert.KernelIdeal.Blocks

end
-- ==== Proof.KernelWhole.lean ====
/-
  The idealized kernel's whole program: the mask argument re-laid as [16, 8192, 128], the region (which adds to entry
  [b, r, l] the offset b * 4194304), and then the host operations after the region: the region's output flattened to a
  vector `J` of 16777216 indices, a negative index moved up by 67108864, the updates argument flattened, every update added
  into a zero vector of length 67108864 at its index, and the sum re-laid as [16, 256, 256, 64].  Those operations after
  the region are carried as ONE function `tail` of the index vector and the updates; the program's result is `tail` of
  the flattened `addOffset` of the re-laid mask, and of the updates as launched.
-/
import proofs.«123586_j80900003987460_1_alg».proof.Proof.KernelBlocks
import Idealize.ShloMosaic.Lib.StableHlo.Run

noncomputable section

namespace Cert.KernelIdeal.Whole

open Idealize.ShloMosaic Idealize.ShloMosaic.TcCoe Idealize.SL.Sem Idealize.ShloMosaic.StableHlo
open Cert.KernelIdeal Cert.KernelIdeal.Gen Cert.KernelIdeal.GenP Cert.KernelIdeal.Blocks

variable {F : FTy → Type} [FloatOps F]

/-- The host operations after the region, as one function of the flat index vector `J` and the updates `U`: an index
    below zero is moved up by 67108864, then every update is added into a zero vector of length 67108864 at its index
    (an index still outside the vector contributes as the scatter says), and the sum is re-laid as [16, 256, 256, 64]. -/
def tail (J : IVec S16777216 32) (U : Vec F S16x128x128x64 .f32) : Vec F S16x256x256x64 .f32 :=
  shapeCast S16x256x256x64
    (Host.scatterAdd scatter_S67108864_S16777216x1_S16777216_n_0_0_1
      (broadcastInDim S67108864 ![] bcast_S_S67108864 (constant (F := F) S_ .f32 0x00000000#32))
      (broadcastInDim S16777216x1 ![0] bcast_S16777216_S16777216x1_0
        (select (cmpi .slt J (broadcastInDim S16777216 ![] bcast_S_S16777216 (constantI S_ 32 0#32)))
          (addi J (broadcastInDim S16777216 ![] bcast_S_S16777216 (constantI S_ 32 67108864#32)))
          J))
      (shapeCast S16777216 U shapeCasts_S16x128x128x64_S16777216))
    shapeCasts_S67108864_S16x256x256x64

variable (m : (ℓ : Loc nD τ sig) → Buf (Elt F) ℓ) (ρ : Dev nD → PrngReg)

/-- The buffers as the region leaves them: the pipeline's arrays at what the run computed, every other buffer as the
    region found it. -/
abbrev left (c : Dev nD) : Valuation τ sig (Elt F) :=
  Pipeline.withArrays (cfgs 0).spec c (V0 m c) (fun w => (dats m 0 c).arrAt w (cfgs 0).N)

/-- The program's result buffer after the operations that follow the region: `tail` of the region's output array,
    flattened, and of the updates buffer, both as the region leaves them. -/
theorem after_tail (c : Dev nD) :
    Pipeline.afterTail₀ cfgs (dats m) 0 (V0 m) [hostOps1] c main_v12
      = tail (shapeCast S16777216 (left m c (Proc.devRef .tc main_v1)) shapeCasts_S16x8192x128_S16777216)
          (left m c (Proc.devRef .tc main_arg0)) := by
  unfold Pipeline.afterTail₀
  show StableHlo.after hostOps1 _ (Proc.devRef .tc main_v12) = _
  after_results
  rfl

/-- The region's output array, as the region leaves it, is `addOffset` of the re-laid mask. -/
theorem left_v1 (c : Dev nD) :
    (left m c (Proc.devRef .tc main_v1) : S16x8192x128.Idx → Elt F .i32)
      = addOffset (shapeCast S16x8192x128 (m ((c : Thread nD τ).loc main_arg1)) shapeCasts_S16x128x128x64_S16x8192x128) :=
  (Pipeline.withArrays_arr spec0 launch0.win.arr_inj c _ _ 1).trans (final m c)

/-- The updates argument is no array of the pipeline and no host operation before the region writes it: the region
    leaves it as launched. -/
theorem left_arg0 (c : Dev nD) :
    left m c (Proc.devRef .tc main_arg0) = m ((c : Thread nD τ).loc main_arg0) :=
  (Pipeline.withArrays_of_ne _ c (V0 m c) _ main_arg0 (by exact (by decide : ∀ w, Pipeline.arrRef spec0 w ≠ main_arg0))).trans
    (V_main_arg0 m c)

/-- The program's result after the whole run, as a function of the two arguments as launched. -/
theorem result (c : Dev nD) :
    Pipeline.afterTail₀ cfgs (dats m) 0 (V0 m) [hostOps1] c main_v12
      = tail (shapeCast S16777216
            (addOffset (shapeCast S16x8192x128 (m ((c : Thread nD τ).loc main_arg1)) shapeCasts_S16x128x128x64_S16x8192x128))
            shapeCasts_S16x8192x128_S16777216)
          (m ((c : Thread nD τ).loc main_arg0)) := by
  rw [after_tail, left_v1, left_arg0]

/-- Every weakly fair execution of the idealized kernel's program terminates, its result buffer at `tail` of the
    flattened `addOffset` of the re-laid mask and of the updates, its two arguments as launched. -/
theorem run : θ_run defs (onTc (τ := τ) (main (F := F))) ⟨m, fun _ => 0, ρ⟩ fun r => ∀ c : Dev nD,
      r.2.mem ((c : Thread nD τ).loc main_v12)
        = tail (shapeCast S16777216
              (addOffset (shapeCast S16x8192x128 (m ((c : Thread nD τ).loc main_arg1)) shapeCasts_S16x128x128x64_S16x8192x128))
              shapeCasts_S16x8192x128_S16777216)
            (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v12 (Pipeline.mem_restRefs_of main_v12 (by decide) (by decide))).trans (result m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Whole

end
-- ==== Proof.Bridge.lean ====
/-
  The bridge between the two programs.  Both end with the same operations applied to a flat vector of 16777216 indices
  and to the flattened updates; what differs is how the index vector is made.  The kernel's program re-lays the mask as
  [16, 8192, 128], adds b * 4194304 to entry [b, r, l] and flattens; the reference re-lays it as [16, 1048576], adds the
  column (iota * 4194304)[b] to row b and flattens.  Read at a flat position f (0 ≤ f < 16777216) both give the mask's
  word at the row-major position f plus (f / 1048576) * 4194304, in 32-bit arithmetic: a block [b, ·, ·] of the first
  layout and a row [b, ·] of the second are the same 1048576 consecutive positions.  So the two index vectors are one
  function of the mask, and the two results are one function of the arguments.
-/
import proofs.«123586_j80900003987460_1_alg».proof.Proof.KernelWhole
import proofs.«123586_j80900003987460_1_alg».proof.Proof.Gen.ReferenceIdeal.Read

noncomputable section

namespace Cert.Bridge

open Idealize.ShloMosaic
open Cert.ReferenceIdeal.Read

variable {F : FTy → Type} [FloatOps F]

/-- The index of [16, 8192, 128] at the flat position `f`: [f / 1048576, f / 128 % 8192, f % 128]. -/
abbrev at3 (i : Cert.KernelIdeal.S16777216.Idx) : Cert.KernelIdeal.S16x8192x128.Idx := fun a => match a with
  | ⟨0, _⟩ => ⟨(i 0).val / 1048576, by have h0 : (i 0).val < 16777216 := (i 0).isLt; show (i 0).val / 1048576 < 16; omega⟩
  | ⟨1, _⟩ => ⟨(i 0).val / 128 % 8192, by show (i 0).val / 128 % 8192 < 8192; omega⟩
  | ⟨2, _⟩ => ⟨(i 0).val % 128, by show (i 0).val % 128 < 128; omega⟩

/-- The index of [16, 128, 128, 64] at the flat position `f`: [f / 1048576, f / 8192 % 128, f / 64 % 128, f % 64]. -/
abbrev at4 (i : Cert.KernelIdeal.S16777216.Idx) : Cert.KernelIdeal.S16x128x128x64.Idx := fun a => match a with
  | ⟨0, _⟩ => ⟨(i 0).val / 1048576, by have h0 : (i 0).val < 16777216 := (i 0).isLt; show (i 0).val / 1048576 < 16; omega⟩
  | ⟨1, _⟩ => ⟨(i 0).val / 8192 % 128, by show (i 0).val / 8192 % 128 < 128; omega⟩
  | ⟨2, _⟩ => ⟨(i 0).val / 64 % 128, by show (i 0).val / 64 % 128 < 128; omega⟩
  | ⟨3, _⟩ => ⟨(i 0).val % 64, by show (i 0).val % 64 < 64; omega⟩

/-- The kernel's index vector at a flat position: the mask's word there plus (position / 1048576) * 4194304. -/
theorem kernel_flat (x1 : Cert.KernelIdeal.S16x128x128x64.Idx → BitVec 32) (i : Cert.KernelIdeal.S16777216.Idx) :
    shapeCast Cert.KernelIdeal.S16777216
        (Cert.KernelIdeal.Blocks.addOffset
          (shapeCast Cert.KernelIdeal.S16x8192x128 x1 Cert.KernelIdeal.Gen.shapeCasts_S16x128x128x64_S16x8192x128))
        Cert.KernelIdeal.Gen.shapeCasts_S16x8192x128_S16777216 i
      = IntOp.addi (x1 (at4 i)) (IntOp.muli (BitVec.ofNat 32 ((i 0).val / 1048576)) 4194304#32) := by
  have h0 : (i 0).val < 16777216 := (i 0).isLt
  refine (shapeCast_apply _ Cert.KernelIdeal.Gen.shapeCasts_S16x8192x128_S16777216 i (at3 i) ?_).trans ?_
  · rewrite [Shape.rowMajor_val_three, Shape.rowMajor_val_one]
    show ((i 0).val / 1048576 * 8192 + (i 0).val / 128 % 8192) * 128 + (i 0).val % 128 = (i 0).val
    omega
  · unfold Cert.KernelIdeal.Blocks.addOffset
    refine congrArg (fun z => IntOp.addi z _) ?_
    refine shapeCast_apply x1 Cert.KernelIdeal.Gen.shapeCasts_S16x128x128x64_S16x8192x128 (at3 i) (at4 i) ?_
    rewrite [Shape.rowMajor_val_four, Shape.rowMajor_val_three]
    show (((i 0).val / 1048576 * 128 + (i 0).val / 8192 % 128) * 128 + (i 0).val / 64 % 128) * 64 + (i 0).val % 64
      = ((i 0).val / 1048576 * 8192 + (i 0).val / 128 % 8192) * 128 + (i 0).val % 128
    omega

/-- The reference's index vector at a flat position: the same word plus the same offset. -/
theorem reference_flat (x1 : (⟨Cert.ReferenceIdeal.S16x128x128x64, .i32⟩ : BufTy).Contents (Elt F)) (i : Cert.ReferenceIdeal.S16777216.Idx) :
    val_main_v7 (F := F) x1 i
      = IntOp.addi (x1 (at4 i)) (IntOp.muli (BitVec.ofNat 32 ((i 0).val / 1048576)) 4194304#32) := by
  have h0 : (i 0).val < 16777216 := (i 0).isLt
  rw [val_main_v7_apply, val_main_v6_apply, val_main_v4_apply, val_main_v5_apply, val_main_v3_apply, val_main_v2_apply,
    val_main_v0_apply, val_main_v1_apply, val_main_c_apply]
  have e : idx_main_v4 (idx_main_v7 i) = at4 i := by
    funext a; apply Fin.ext
    match a with
    | ⟨0, _⟩ => show ((i 0).val / 1048576 * 1048576 + (i 0).val % 1048576) / 1048576 = (i 0).val / 1048576; omega
    | ⟨1, _⟩ => show ((i 0).val / 1048576 * 1048576 + (i 0).val % 1048576) / 8192 % 128 = (i 0).val / 8192 % 128; omega
    | ⟨2, _⟩ => show ((i 0).val / 1048576 * 1048576 + (i 0).val % 1048576) / 64 % 128 = (i 0).val / 64 % 128; omega
    | ⟨3, _⟩ => show ((i 0).val / 1048576 * 1048576 + (i 0).val % 1048576) % 64 = (i 0).val % 64; omega
  rw [e]

/-- The two index vectors are one function of the mask. -/
theorem flat_eq (x1 : (⟨Cert.ReferenceIdeal.S16x128x128x64, .i32⟩ : BufTy).Contents (Elt F)) :
    shapeCast Cert.KernelIdeal.S16777216
        (Cert.KernelIdeal.Blocks.addOffset
          (shapeCast Cert.KernelIdeal.S16x8192x128 x1 Cert.KernelIdeal.Gen.shapeCasts_S16x128x128x64_S16x8192x128))
        Cert.KernelIdeal.Gen.shapeCasts_S16x8192x128_S16777216
      = val_main_v7 (F := F) x1 :=
  funext fun i => (kernel_flat x1 i).trans (reference_flat (F := F) x1 i).symm

/-- The kernel program's result and the reference's are one function of the two arguments: the same operations after
    the index vector, applied to equal index vectors and the same updates. -/
theorem result_eq (x0 : (⟨Cert.ReferenceIdeal.S16x128x128x64, .f32⟩ : BufTy).Contents (Elt F))
    (x1 : (⟨Cert.ReferenceIdeal.S16x128x128x64, .i32⟩ : BufTy).Contents (Elt F)) :
    Cert.KernelIdeal.Whole.tail (F := F)
        (shapeCast Cert.KernelIdeal.S16777216
          (Cert.KernelIdeal.Blocks.addOffset
            (shapeCast Cert.KernelIdeal.S16x8192x128 x1 Cert.KernelIdeal.Gen.shapeCasts_S16x128x128x64_S16x8192x128))
          Cert.KernelIdeal.Gen.shapeCasts_S16x8192x128_S16777216)
        x0
      = val_main_v17 (F := F) x0 x1 := by
  rw [flat_eq]
  rfl

end Cert.Bridge

end
-- ==== Proof.lean ====
/-
  The proof of `Cert.Claim` for a max-unpooling written as a scatter-add: every update is added into a zero output at
  the flat position its mask word names, offset by the batch (b * 4194304, 32-bit arithmetic).

  The three frames.  The kernel's program and its idealization run their one region (16 grid points, one batch each,
  the block fetched, the offset added, the block written back) inside host operations that write only their own result
  buffers, so both terminate without a fault and leave the two arguments as launched; the reference is host operations
  only, and its frame is its run with the result forgotten.
  `preserves`: the idealization rewrote no operation, so there is nothing to state.
  `algebraic`: both idealized programs end with the same operations (a negative index moved up by 67108864, the
  scatter-add into zeros, the re-laying as [16, 256, 256, 64]) applied to a flat index vector and the flattened updates.
  The kernel's index vector is the region's output flattened, the reference's is the mask re-laid as [16, 1048576] plus a
  broadcast column, flattened; at every flat position both are the mask's word there plus (position / 1048576) * 4194304
  (`Cert.Bridge.flat_eq`).  Equal index vectors and equal updates under the same operations give equal results; no sum
  is reordered and no input needs to be finite for this.
-/
import proofs.«123586_j80900003987460_1_alg».proof.Defs
import proofs.«123586_j80900003987460_1_alg».proof.Proof.Gen.Kernel
import proofs.«123586_j80900003987460_1_alg».proof.Proof.Gen.KernelIdeal
import proofs.«123586_j80900003987460_1_alg».proof.Proof.Gen.ReferenceIdeal
import proofs.«123586_j80900003987460_1_alg».proof.Proof.Gen.Pre_finite_inputs
import proofs.«123586_j80900003987460_1_alg».proof.Proof.KernelFrame
import proofs.«123586_j80900003987460_1_alg».proof.Proof.KernelIdealFrame
import proofs.«123586_j80900003987460_1_alg».proof.Proof.KernelWhole
import proofs.«123586_j80900003987460_1_alg».proof.Proof.Bridge
import proofs.«123586_j80900003987460_1_alg».proof.Proof.Gen.ReferenceIdeal.Run
import proofs.«123586_j80900003987460_1_alg».proof.Proof.Gen.ReferenceIdeal.Read
import Idealize.ShloMosaic.Adequacy
import Idealize.ShloMosaic.Init

noncomputable section

namespace Cert.Proof

open Idealize.ShloMosaic Idealize.SL.Sem

/-- The kernel's program terminates without a fault and leaves its arguments as launched. -/
theorem frame_k : Cert.frame_Kernel := fun m ρ _ => Cert.Kernel.GenP.frame m ρ

/-- So does its idealization. -/
theorem frame_ki : Cert.frame_KernelIdeal := fun m ρ _ => Cert.KernelIdeal.GenP.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, both idealized programs end with the reference's last stage of the
    kernel's arguments in their result buffers: the kernel's program by `Cert.Bridge.result_eq`, the reference by its own
    run with the arguments' agreement rewritten. -/
theorem algebraic : Cert.algebraic_KernelIdeal_ReferenceIdeal := by
  intro m ρ m' ρ' _ hagree
  refine ⟨fun c => Cert.ReferenceIdeal.Read.val_main_v17 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.Bridge.result_eq (F := Ideal) _ _), (h c).2⟩)
      (Cert.KernelIdeal.Whole.run (F := Ideal) m ρ)
  · refine (θ_run Cert.ReferenceIdeal.defs _ _).mono (fun _ h c => ⟨?_, (h c).2⟩)
      (Cert.ReferenceIdeal.Value.run (F := Ideal) m' ρ')
    rw [(h c).1, (hagree c).1, (hagree c).2]
    exact Cert.ReferenceIdeal.Read.val_main_v17_eq (F := Ideal) _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
